-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 2
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v1 : BitVec 32 := Scalar.muli arg1 c512_i32
  v1
def k0_off1 (i : grid0.Coords) : Fin 2 → Nat :=
  let arg1 : BitVec 32 := BitVec.ofNat 32 (i 1).val
  let c512_i32 : BitVec 32 := 512#32
  let v1 : BitVec 32 := Scalar.muli arg1 c512_i32
  let v2 : BitVec 32 := v1
  let v3 : Index := Scalar.indexCast v2
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  reduces_S512x512_S512 : S512x512.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  dot_S512x512_S512x512_S512x512_1_1_0_0_n_n_wf : DotDims.WF S512x512 S512x512 S512x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S_, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S4096x4096, .f32⟩
  | .hbm, ⟨31, _⟩ => ⟨S4096x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x512_S4096x512_S4096x4096_1_1_0_0_n_n_wf : DotDims.WF S4096x512 S4096x512 S4096x4096 [1] [1] [0] [0] [] []

variable [Facts₀]

def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf

class Facts : Prop extends Facts₀ where

variable [Facts]
-- ==== Proof.BitsTile.lean ====
/-
  The kernel body on whole staging buffers, at any float instance.

  One grid point (i, j) of the 8 × 8 grid computes one 512 × 512 tile of the distance matrix. The body reads its
  first operand's staging buffer whole (the 512 rows of x numbered 512·i …), reads 512 rows of the second
  operand's buffer — the whole array x, resident — starting at row 512·j, and overwrites the output buffer whole
  with one value, a pure function of those two row panels and of (i, j). This module names that value
  (`tile`), says what the output buffer reads afterwards (`outTile`: the one store as a covering piece), and runs the
  body symbolically to exactly that state, both input buffers left as they were.
-/
import proofs.«118046_j46308337386061_2_alg».proof.Proof.Gen.Kernel.Launch
import proofs.«118046_j46308337386061_2_alg».proof.Proof.Gen.Kernel.Skeleton
import proofs.«118046_j46308337386061_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole 512 × 512 buffer: what the first load reads and the store writes. -/
abbrev rAll : Rect S512x512 := Rect.unit (s := S512x512) ![0, 0] S512x512.size inb_S512x512_S512x512_0_0

/-- The 512 rows of the resident array the second load reads at grid point `i`: rows 512·(i 1) …, all 512 columns. -/
abbrev rRows (i : grid0.Coords) : Rect S4096x512 := Rect.unit (s := S4096x512) (k0_off1 i) S512x512.size (k0_off1_inb i)

/-- The tile the body stores at grid point `i`, from the first operand's buffer `x0` and the resident array `x1`. -/
def tile (i : grid0.Coords) (x0 : Vec F S512x512 .f32) (x1 : Vec F S4096x512 .f32) : Vec F S512x512 .f32 :=
  k0_pay1 (k0_pay3 i (View.ld x0 rAll) (View.ld x1 (rRows i))) (k0_pay4 i (View.ld x0 rAll) (View.ld x1 (rRows i))) (k0_pay5 (F := F))

/-- What the output buffer reads after the body: its one store, as a piece. -/
def outTile (i : grid0.Coords) (x0 : Vec F S512x512 .f32) (x1 : Vec F S4096x512 .f32) : Vec F S512x512 .f32 :=
  View.canon [⟨rAll, tile i x0 x1⟩]

/-- The one store covers the buffer. -/
theorem cover (p0 : Vec F S512x512 .f32) (y : S512x512.Idx) :
    ∃ pc ∈ ([⟨rAll, p0⟩] : List (View.Piece (Elt F) S512x512 .f32)), y ∈ pc.1.set :=
  View.cover_of_tiled [⟨rAll, p0⟩] S512x512.size (by rfl) y

set_option maxHeartbeats 1000000 in
/-- The body, on whole staging memrefs holding `x0`, `x1` and anything, runs to the continuation with the inputs'
    buffers unchanged and the output's at `outTile`. -/
theorem sound_kernel (c : Dev nD) (E : Set ℕ) (i : grid0.Coords)
    (arg2 : Memref sig .tc .vmem S512x512 .f32) (harg2 : arg2.IsWhole)
    (arg3 : Memref sig .tc .vmem S4096x512 .f32) (harg3 : arg3.IsWhole)
    (arg4 : Memref sig .tc .vmem S512x512 .f32) (harg4 : arg4.IsWhole)
    (x0 : Vec F S512x512 .f32) (x1 : Vec F S4096x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outTile i x0 x1)) -∗ K ⟨⟩))
      ⊢ wp frame (wpE (defs₀ (F := F)) Variants.none c none) E (cc0__cdist_kernel i arg2 harg2 arg3 harg3 arg4 harg4) K := by
  simp only [cc0__cdist_kernel_eq_skeleton]; unfold cc0__cdist_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

end Cert.Kernel.Tile

end
-- ==== Proof.BitsLaunch.lean ====
/-
  The launch: the 8 × 8 grid of tiles as one pipelined region, at any float instance.

  The kernel is handed the ONE array x through two windows: window 0 streams the 512-row panel of the point's
  row block, window 1 keeps all of x resident; window 2 is the output, one 512 × 512 tile per point, written back at
  every point. Since both input windows read the same buffer, the buffer's ownership is divided between them, half
  each; the output array is held whole. The proof data say: each input's staging buffer holds its block of x after
  every point (the body only reads them), the output's holds the tile of the two blocks; nothing else is carried
  between points. From the body's run (`sound_kernel`) the pipeline library gives the run of the whole program, each
  array ending at what the library computes from the proof data.
-/
import proofs.«118046_j46308337386061_2_alg».proof.Proof.BitsTile

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-- The resource algebra of the run: one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- The TensorCore's buffers when the region is entered: as launched (the program is the region alone). -/
abbrev V (c : Dev nD) (b : Ref sig .tc) : Buf (Elt F) ((c : Thread nD τ).loc b) := m ((c : Thread nD τ).loc b)

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: arrays as launched; after the body each input buffer at its block, the output buffer at the tile of
    the two input blocks; no invariant; nothing owed; the shared input array half to each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (grid0.coords t) (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outTile (grid0.coords t) (iblk m c 0 t) (iblk m c 1 t) := by dsimp only [dats]

/-- An input's current staging buffer holds its block at every point, fetched there or not: a point that does not fetch
    it has the same block index as the last one that did, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- The body obligation at every point: the inputs' buffers hold their blocks, so the body's run applies. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · rw [after0_0]; iexact H0
  isplitl [H1]; · rw [after0_1]; iexact H1
  rw [after0_2]; iexact H2

/-- The buffers behind the arrays, each whole at its launch contents, are the windows' arrays at their shares: x's
    buffer divided in two halves, one per input window; the output's whole. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [bigSep_eq_bigSepL_of_eq [main_arg0, main_v0] (by decide) (by decide)]
  simp only [bigSepL_cons_cons, bigSepL_singleton]
  have h0 : (dats m 0 c).share 0 = fullShare.left := rfl
  have h1 : (dats m 0 c).share 1 = fullShare.right := rfl
  have h2 : (dats m 0 c).share 2 = fullShare := rfl
  rw [h0, h1, h2, (arr_whole0 0).set_eq_univ, (arr_whole0 2).set_eq_univ]
  show iprop((((c : Thread nD τ).loc main_arg0) ↦{fullShare} V m c main_arg0) ∗ (((c : Thread nD τ).loc main_v0) ↦{fullShare} V m c main_v0)) ⊢ _
  iintro ⟨Hx, Ho⟩
  ihave Hx' := (pointsTo_share (PosShare.mem_left_op_right fullShare)).1 $$ Hx
  icases Hx' with ⟨Hl, Hr⟩
  isplitl [Hl]; · iexact Hl
  isplitl [Hr]; · iexact Hr
  iexact Ho

/-- The launch element: every staging cell's owner at round 0 and a duty token per transfer the pipeline issues. -/
def u₀ : UR sig nD τ := initOf (Pipeline.cells cfgs cellOf_inj) (Pipeline.launchToks cfgs cellOf_inj)

/-- The post of the run: every array of the kernel holds what the pipeline library computes from the proof data. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- From any memory with zero counters, every weakly fair execution of the program terminates without fault, and in
    every final state each array of the kernel holds what the library computes from the proof data. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The input array ends as launched: no write-back touches an input's array. -/
theorem final_arg (c : Dev nD) : (dats m 0 c).arrAt 0 cfg0.N = m ((c : Thread nD τ).loc main_arg0) :=
  (dats (F := F) m 0 c).arrAt_in (0 : Fin 3) rfl _

/-- The frame: the program runs to the end, faults nowhere, and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (final_arg m c)) (run_main m ρ)

end Cert.Kernel.Tile

end
-- ==== Proof.IdealTile.lean ====
/-
  The kernel body on whole staging buffers, at any float instance.

  One grid point (i, j) of the 8 × 8 grid computes one 512 × 512 tile of the distance matrix. The body reads its
  first operand's staging buffer whole (the 512 rows of x numbered 512·i …), reads 512 rows of the second
  operand's buffer — the whole array x, resident — starting at row 512·j, and overwrites the output buffer whole
  with one value, a pure function of those two row panels and of (i, j). This module names that value
  (`tile`), says what the output buffer reads afterwards (`outTile`: the one store as a covering piece), and runs the
  body symbolically to exactly that state, both input buffers left as they were.
-/
import proofs.«118046_j46308337386061_2_alg».proof.Proof.Gen.KernelIdeal.Launch
import proofs.«118046_j46308337386061_2_alg».proof.Proof.Gen.KernelIdeal.Skeleton
import proofs.«118046_j46308337386061_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole 512 × 512 buffer: what the first load reads and the store writes. -/
abbrev rAll : Rect S512x512 := Rect.unit (s := S512x512) ![0, 0] S512x512.size inb_S512x512_S512x512_0_0

/-- The 512 rows of the resident array the second load reads at grid point `i`: rows 512·(i 1) …, all 512 columns. -/
abbrev rRows (i : grid0.Coords) : Rect S4096x512 := Rect.unit (s := S4096x512) (k0_off1 i) S512x512.size (k0_off1_inb i)

/-- The tile the body stores at grid point `i`, from the first operand's buffer `x0` and the resident array `x1`. -/
def tile (i : grid0.Coords) (x0 : Vec F S512x512 .f32) (x1 : Vec F S4096x512 .f32) : Vec F S512x512 .f32 :=
  k0_pay1 (k0_pay3 i (View.ld x0 rAll) (View.ld x1 (rRows i))) (k0_pay4 i (View.ld x0 rAll) (View.ld x1 (rRows i))) (k0_pay5 (F := F))

/-- What the output buffer reads after the body: its one store, as a piece. -/
def outTile (i : grid0.Coords) (x0 : Vec F S512x512 .f32) (x1 : Vec F S4096x512 .f32) : Vec F S512x512 .f32 :=
  View.canon [⟨rAll, tile i x0 x1⟩]

/-- The one store covers the buffer. -/
theorem cover (p0 : Vec F S512x512 .f32) (y : S512x512.Idx) :
    ∃ pc ∈ ([⟨rAll, p0⟩] : List (View.Piece (Elt F) S512x512 .f32)), y ∈ pc.1.set :=
  View.cover_of_tiled [⟨rAll, p0⟩] S512x512.size (by rfl) y

set_option maxHeartbeats 1000000 in
/-- The body, on whole staging memrefs holding `x0`, `x1` and anything, runs to the continuation with the inputs'
    buffers unchanged and the output's at `outTile`. -/
theorem sound_kernel (c : Dev nD) (E : Set ℕ) (i : grid0.Coords)
    (arg2 : Memref sig .tc .vmem S512x512 .f32) (harg2 : arg2.IsWhole)
    (arg3 : Memref sig .tc .vmem S4096x512 .f32) (harg3 : arg3.IsWhole)
    (arg4 : Memref sig .tc .vmem S512x512 .f32) (harg4 : arg4.IsWhole)
    (x0 : Vec F S512x512 .f32) (x1 : Vec F S4096x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outTile i x0 x1)) -∗ K ⟨⟩))
      ⊢ wp frame (wpE (defs₀ (F := F)) Variants.none c none) E (cc0__cdist_kernel i arg2 harg2 arg3 harg3 arg4 harg4) K := by
  simp only [cc0__cdist_kernel_eq_skeleton]; unfold cc0__cdist_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

end Cert.KernelIdeal.Tile

end
-- ==== Proof.IdealLaunch.lean ====
/-
  The launch: the 8 × 8 grid of tiles as one pipelined region, at any float instance.

  The kernel is handed the ONE array x through two windows: window 0 streams the 512-row panel of the point's
  row block, window 1 keeps all of x resident; window 2 is the output, one 512 × 512 tile per point, written back at
  every point. Since both input windows read the same buffer, the buffer's ownership is divided between them, half
  each; the output array is held whole. The proof data say: each input's staging buffer holds its block of x after
  every point (the body only reads them), the output's holds the tile of the two blocks; nothing else is carried
  between points. From the body's run (`sound_kernel`) the pipeline library gives the run of the whole program, each
  array ending at what the library computes from the proof data.
-/
import proofs.«118046_j46308337386061_2_alg».proof.Proof.IdealTile

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The resource algebra of the run: one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- The TensorCore's buffers when the region is entered: as launched (the program is the region alone). -/
abbrev V (c : Dev nD) (b : Ref sig .tc) : Buf (Elt F) ((c : Thread nD τ).loc b) := m ((c : Thread nD τ).loc b)

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: arrays as launched; after the body each input buffer at its block, the output buffer at the tile of
    the two input blocks; no invariant; nothing owed; the shared input array half to each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (grid0.coords t) (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outTile (grid0.coords t) (iblk m c 0 t) (iblk m c 1 t) := by dsimp only [dats]

/-- An input's current staging buffer holds its block at every point, fetched there or not: a point that does not fetch
    it has the same block index as the last one that did, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- The body obligation at every point: the inputs' buffers hold their blocks, so the body's run applies. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · rw [after0_0]; iexact H0
  isplitl [H1]; · rw [after0_1]; iexact H1
  rw [after0_2]; iexact H2

/-- The buffers behind the arrays, each whole at its launch contents, are the windows' arrays at their shares: x's
    buffer divided in two halves, one per input window; the output's whole. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [bigSep_eq_bigSepL_of_eq [main_arg0, main_v0] (by decide) (by decide)]
  simp only [bigSepL_cons_cons, bigSepL_singleton]
  have h0 : (dats m 0 c).share 0 = fullShare.left := rfl
  have h1 : (dats m 0 c).share 1 = fullShare.right := rfl
  have h2 : (dats m 0 c).share 2 = fullShare := rfl
  rw [h0, h1, h2, (arr_whole0 0).set_eq_univ, (arr_whole0 2).set_eq_univ]
  show iprop((((c : Thread nD τ).loc main_arg0) ↦{fullShare} V m c main_arg0) ∗ (((c : Thread nD τ).loc main_v0) ↦{fullShare} V m c main_v0)) ⊢ _
  iintro ⟨Hx, Ho⟩
  ihave Hx' := (pointsTo_share (PosShare.mem_left_op_right fullShare)).1 $$ Hx
  icases Hx' with ⟨Hl, Hr⟩
  isplitl [Hl]; · iexact Hl
  isplitl [Hr]; · iexact Hr
  iexact Ho

/-- The launch element: every staging cell's owner at round 0 and a duty token per transfer the pipeline issues. -/
def u₀ : UR sig nD τ := initOf (Pipeline.cells cfgs cellOf_inj) (Pipeline.launchToks cfgs cellOf_inj)

/-- The post of the run: every array of the kernel holds what the pipeline library computes from the proof data. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- From any memory with zero counters, every weakly fair execution of the program terminates without fault, and in
    every final state each array of the kernel holds what the library computes from the proof data. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The input array ends as launched: no write-back touches an input's array. -/
theorem final_arg (c : Dev nD) : (dats m 0 c).arrAt 0 cfg0.N = m ((c : Thread nD τ).loc main_arg0) :=
  (dats (F := F) m 0 c).arrAt_in (0 : Fin 3) rfl _

/-- The frame: the program runs to the end, faults nowhere, and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (final_arg m c)) (run_main m ρ)

end Cert.KernelIdeal.Tile

end
-- ==== Proof.Dist.lean ====
/-
  The pairwise Euclidean distance matrix of the rows of x : [4096, 512], over the extended reals.

  For rows r and s the squared distance is computed through the inner products,
      |x_r − x_s|² = ⟨x_r, x_r⟩ + ⟨x_s, x_s⟩ − 2·⟨x_r, x_s⟩,
  clamped below at 0, and the distance is its square root taken only where it is positive (0 elsewhere). `dist` is
  that function, index by index. `distZeroDiag` is the same function with the squared distance REPLACED by 0 on the
  diagonal r = s. The two agree when every entry of x is a real number: then ⟨x_r, x_r⟩ is a real number v and
  v + v − 2·v = 0, so the clamped squared distance on the diagonal already is 0. (With an infinite entry this fails:
  ⊤ + ⊤ − 2·⊤ is not 0 on the extended reals, which is why finiteness of x is needed exactly here and nowhere else.)
-/
import Idealize.ShloMosaic.PureOps.Ideal
import Idealize.ShloMosaic.PureOps.Ideal.Laws
import Idealize.ShloMosaic.Lib.ValueIdx

noncomputable section

open scoped BigOperators

namespace Cert.Pairwise

open Idealize.ShloMosaic Idealize.ShloMosaic.ValueIdx

/-- The shape of x and of the distance matrix. -/
abbrev Rows : Shape := ⟨2, ![4096, 512]⟩
abbrev Pairs : Shape := ⟨2, ![4096, 4096]⟩

/-- The float literal 2.0 denotes the real number 2. -/
theorem ofBits_two : Ideal.ofBits .f32 0x40000000#32 = ((2 : ℝ) : EReal) := by
  simp [Ideal.ofBits, Ideal.ieee, -EReal.coe_mul]; norm_num

/-- The inner product of rows r and s. -/
def gram (x : Rows.Idx → EReal) (r s : Fin 4096) : EReal := ∑ k : Fin 512, x (ix2 r k) * x (ix2 s k)

/-- The squared distance of rows r and s through the inner products, clamped below at zero. -/
def sqDist (x : Rows.Idx → EReal) (r s : Fin 4096) : EReal :=
  max (gram x r r + gram x s s - Ideal.ofBits .f32 0x40000000#32 * gram x r s) (Ideal.ofBits .f32 0x00000000#32)

/-- The guarded square root: √z where z > 0 (the root taken of z there and of 1 elsewhere), 0 where z ≤ 0. -/
def root (z : EReal) : EReal :=
  Scalar.select (Ideal.cmp .ogt z (Ideal.ofBits .f32 0x00000000#32))
    (Ideal.sqrt (Scalar.select (Ideal.cmp .ogt z (Ideal.ofBits .f32 0x00000000#32)) z (Ideal.ofBits .f32 0x3F800000#32)))
    (Ideal.ofBits .f32 0x00000000#32)

/-- The distance of rows r and s. -/
def distAt (x : Rows.Idx → EReal) (r s : Fin 4096) : EReal := root (sqDist x r s)

/-- The same with the squared distance set to zero, before the root, when r = s. -/
def distZeroDiagAt (x : Rows.Idx → EReal) (r s : Fin 4096) : EReal :=
  root (if r.val = s.val then Ideal.ofBits .f32 0x00000000#32 else sqDist x r s)

/-- The distance matrix. -/
def distances (x : Rows.Idx → EReal) : Pairs.Idx → EReal := fun j => distAt x (j 0) (j 1)

/-- The distance matrix with the squared distance set to zero on the diagonal before the root. -/
def distancesZeroDiag (x : Rows.Idx → EReal) : Pairs.Idx → EReal := fun j => distZeroDiagAt x (j 0) (j 1)

/-- A finite sum of real numbers, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With every entry of x a real number, every inner product of rows is a real number. -/
theorem gram_real (x : Rows.Idx → EReal) (hx : ∀ i, ∃ v : ℝ, x i = v) (r s : Fin 4096) : ∃ v : ℝ, gram x r s = v := by
  choose f hf using hx
  refine ⟨∑ k : Fin 512, f (ix2 r k) * f (ix2 s k), ?_⟩
  unfold gram
  rw [coe_sum]
  exact Finset.sum_congr rfl fun k _ => by rw [hf, hf, EReal.coe_mul]

/-- On the diagonal the clamped squared distance is zero: v + v − 2·v = 0 for the real number v = ⟨x_r, x_r⟩. -/
theorem sqDist_self (x : Rows.Idx → EReal) (hx : ∀ i, ∃ v : ℝ, x i = v) (r : Fin 4096) :
    sqDist x r r = Ideal.ofBits .f32 0x00000000#32 := by
  obtain ⟨v, hv⟩ := gram_real x hx r r
  unfold sqDist
  rw [hv, ofBits_two, Ideal.ofBits_zero_f32, ← EReal.coe_add, ← EReal.coe_mul, ← EReal.coe_sub]
  have h : v + v - 2 * v = 0 := by ring
  rw [h]; simp

/-- For x with real entries, zeroing the squared distance of a row to itself changes nothing. -/
theorem distZeroDiagAt_eq (x : Rows.Idx → EReal) (hx : ∀ i, ∃ v : ℝ, x i = v) (r s : Fin 4096) :
    distZeroDiagAt x r s = distAt x r s := by
  unfold distZeroDiagAt distAt
  split
  · next h =>
    obtain rfl : r = s := Fin.ext h
    rw [sqDist_self x hx]
  · rfl

/-- For x with real entries, zeroing the diagonal changes nothing. -/
theorem distancesZeroDiag_eq (x : Rows.Idx → EReal) (hx : ∀ i, ∃ v : ℝ, x i = v) : distancesZeroDiag x = distances x :=
  funext fun j => distZeroDiagAt_eq x hx (j 0) (j 1)

end Cert.Pairwise

end
-- ==== Proof.TileValue.lean ====
/-
  The tile of one grid point, read at an element, over the extended reals.

  At grid point (i₀, i₁) the body holds two 512-row panels: a, the rows 512·i₀ + p of x, and b, the rows 512·i₁ + q.
  Element (p, q) of the tile is the guarded root of the clamped squared distance of row p of a and row q of b,
      max (Σ_k a(p,k)² + Σ_k b(q,k)² − 2·Σ_k a(p,k)·b(q,k), 0),
  except that it is the root of 0 where the two GLOBAL row numbers agree, 512·i₀ + p = 512·i₁ + q. Each piece of the
  body that is not elementwise is read at the element here: the row sums of squares (a reduction along the lane axis,
  kept as a column and broadcast along rows; for b also transposed to a row and broadcast down), the matrix product
  (a sum over the contracted axis; rounding the factors to a narrower format changes nothing on the extended reals),
  and the two counters whose comparison marks the diagonal (machine words, which for these small numbers compare as the
  natural numbers they hold).
-/
import proofs.«118046_j46308337386061_2_alg».proof.Proof.IdealTile
import proofs.«118046_j46308337386061_2_alg».proof.Proof.Dist
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.TileValue

open Cert.KernelIdeal Cert.KernelIdeal.Gen Cert.KernelIdeal.Tile Cert.Pairwise Idealize.ShloMosaic Idealize.ShloMosaic.ValueIdx

/-! ## Row sums of squares -/

/-- The lane-axis reduction of a·a at row p is the sum of the squares of row p. -/
theorem sumSq_apply (a : FVec Ideal S512x512 .f32) (hacc : (0x00000000#32 : BitVec 32) = 0x00000000#32) (p : Fin 512) :
    multiReduction (F := Ideal) .add [1] S512 (mulf a a) 0x00000000#32 reduces_S512x512_S512 (.inl rfl) hacc (ix1 p)
      = ∑ k : Fin 512, a (ix2 p k) * a (ix2 p k) := by
  refine (Ideal.multiReduction_add_single (mulf a a) 0x00000000#32 reduces_S512x512_S512 (.inl rfl) hacc (ix1 p)).trans ?_
  refine Finset.sum_congr rfl fun k _ => ?_
  exact congrArg (mulf a a) (funext fun d => Fin.ext (by match d with | ⟨0, _⟩ => rfl | ⟨1, _⟩ => rfl))

/-- A vector of 512 entries viewed as a column [512, 1] reads its entry p at (p, ·). -/
theorem col_apply {α : Type} (v : S512.Idx → α) (p : Fin 512) (u : Fin 1) :
    shapeCast S512x1 v shapeCasts_S512_S512x1 (ix2 p u) = v (ix1 p) :=
  shapeCast_apply v shapeCasts_S512_S512x1 _ _ (by
    have hu : u.val = 0 := by omega
    rw [Shape.rowMajor_val_two, Shape.rowMajor_val_one]
    show p.val = p.val * 1 + u.val
    omega)

/-- A column [512, 1] broadcast along rows reads, at (p, q), its entry (p, 0). -/
theorem bcastCol_apply {α : Type} (w : S512x1.Idx → α) (p q : Fin 512) :
    broadcastTo S512x512 w broadcasts_S512x1_S512x512 (ix2 p q) = w (ix2 p (0 : Fin 1)) := by
  refine broadcastTo_apply w broadcasts_S512x1_S512x512 (ix2 p q) (ix2 p (0 : Fin 1)) fun ax => ?_
  match ax with
  | ⟨0, _⟩ => show p.val = if (512 : ℕ) = 1 then 0 else p.val; rw [if_neg (by decide)]
  | ⟨1, _⟩ => rfl

/-- The first panel's sums of squares, as a column broadcast along rows: at (p, q), the sum of squares of row p. -/
theorem rowSq_apply (a : FVec Ideal S512x512 .f32) (hacc : (0x00000000#32 : BitVec 32) = 0x00000000#32) (p q : Fin 512) :
    broadcastTo S512x512 (shapeCast S512x1 (multiReduction (F := Ideal) .add [1] S512 (mulf a a) 0x00000000#32 reduces_S512x512_S512 (.inl rfl) hacc) shapeCasts_S512_S512x1) broadcasts_S512x1_S512x512 (ix2 p q)
      = ∑ k : Fin 512, a (ix2 p k) * a (ix2 p k) :=
  (bcastCol_apply _ p q).trans ((col_apply _ p 0).trans (sumSq_apply a hacc p))

/-- The second panel's sums of squares, the column transposed to a row and broadcast down: at (p, q), the sum of
    squares of row q. -/
theorem colSq_apply (b : FVec Ideal S512x512 .f32) (hacc : (0x00000000#32 : BitVec 32) = 0x00000000#32) (p q : Fin 512) :
    broadcastTo S512x512 (transpose S1x512 [1, 0] (shapeCast S512x1 (multiReduction (F := Ideal) .add [1] S512 (mulf b b) 0x00000000#32 reduces_S512x512_S512 (.inl rfl) hacc) shapeCasts_S512_S512x1) transposes_S512x1_p1_0_S1x512) broadcasts_S1x512_S512x512 (ix2 p q)
      = ∑ k : Fin 512, b (ix2 q k) * b (ix2 q k) :=
  (broadcastTo_1b_ab_apply _ broadcasts_S1x512_S512x512 p q).trans
    ((transpose_ix2_apply _ transposes_S512x1_p1_0_S1x512 (0 : Fin 1) q).trans ((col_apply _ q 0).trans (sumSq_apply b hacc q)))

/-! ## The matrix product -/

/-- The product's dimension numbers: rows of both panels contracted along their 512 columns. -/
abbrev D := dot_S512x512_S512x512_S512x512_1_1_0_0_n_n

theorem lhs0 (j : S512x512.Idx) (c : D.contr.Idx) : (D.lhsIdx j c 0).val = (j 0).val := by
  unfold DotDims.lhsIdx
  rw [dif_neg (show ¬(0 : Fin S512x512.rank) ∈ D.lhsBatch by decide), dif_pos (show (0 : Fin S512x512.rank) ∈ D.lhsNonContracting by decide)]
  rfl
theorem lhs1 (j : S512x512.Idx) (c : D.contr.Idx) : (D.lhsIdx j c 1).val = (c ⟨0, by decide⟩).val :=
  D.lhsIdx_val_of_single rfl j c
theorem rhs0 (j : S512x512.Idx) (c : D.contr.Idx) : (D.rhsIdx j c 0).val = (j 1).val := by
  unfold DotDims.rhsIdx
  rw [dif_neg (show ¬(0 : Fin S512x512.rank) ∈ D.rhsBatch by decide), dif_pos (show (0 : Fin S512x512.rank) ∈ D.rhsNonContracting by decide)]
  rfl
theorem rhs1 (j : S512x512.Idx) (c : D.contr.Idx) : (D.rhsIdx j c 1).val = (c ⟨0, by decide⟩).val :=
  D.rhsIdx_val_of_single rfl j c

/-- Element (p, q) of the product of the two panels (each factor first rounded to a narrower format, which on the
    extended reals is the identity) into a zero accumulator is the inner product of row p of a and row q of b. -/
theorem gram_apply (a b : FVec Ideal S512x512 .f32) (p q : Fin 512) :
    matmul (F := Ideal) D none (truncf .bf16 a bitsLt_bf16_f32) (truncf .bf16 b bitsLt_bf16_f32) (constant S512x512 .f32 0x00000000#32) (ix2 p q)
      = ∑ k : Fin 512, a (ix2 p k) * b (ix2 q k) := by
  refine (Ideal.matmul_constant_zero_apply D none _ _ (ix2 p q)).trans ?_
  rw [← Equiv.sum_comp (ValueIdx.contrEquiv1 D 512 rfl rfl).symm]
  refine Finset.sum_congr rfl fun k _ => ?_
  have hk := ValueIdx.contrEquiv1_symm_val D 512 rfl rfl k
  have el : D.lhsIdx (ix2 p q) ((ValueIdx.contrEquiv1 D 512 rfl rfl).symm k) = ix2 p k := funext fun ax => Fin.ext (by
    match ax with
    | ⟨0, _⟩ => exact lhs0 _ _
    | ⟨1, _⟩ => exact (lhs1 _ _).trans hk)
  have er : D.rhsIdx (ix2 p q) ((ValueIdx.contrEquiv1 D 512 rfl rfl).symm k) = ix2 q k := funext fun ax => Fin.ext (by
    match ax with
    | ⟨0, _⟩ => exact rhs0 _ _
    | ⟨1, _⟩ => exact (rhs1 _ _).trans hk)
  rw [el, er]
  rfl

/-! ## The diagonal mark -/

/-- The global row counter 512·i + p, computed in 32-bit words, is the word of that natural number. -/
theorem counter_eq (n p : ℕ) (hn : n < 8) (hp : p < 512) :
    IntOp.addi (Scalar.muli (BitVec.ofNat 32 n) 512#32) (BitVec.ofNat 32 p) = BitVec.ofNat 32 (512 * n + p) := by
  apply BitVec.eq_of_toNat_eq
  simp only [IntOp.addi, Scalar.muli, IntOp.muli, BitVec.toNat_add, BitVec.toNat_mul, BitVec.toNat_ofNat]
  omega

/-- Two such counters are equal words exactly when the numbers are equal. -/
theorem diag_bit (n₀ n₁ p q : ℕ) (h₀ : n₀ < 8) (h₁ : n₁ < 8) (hp : p < 512) (hq : q < 512) :
    IntOp.cmpi .eq (IntOp.addi (Scalar.muli (BitVec.ofNat 32 n₀) 512#32) (BitVec.ofNat 32 p))
        (IntOp.addi (Scalar.muli (BitVec.ofNat 32 n₁) 512#32) (BitVec.ofNat 32 q))
      = if 512 * n₀ + p = 512 * n₁ + q then 1#1 else 0#1 := by
  rw [counter_eq n₀ p h₀ hp, counter_eq n₁ q h₁ hq]
  show BitVec.ofBool (BitVec.ofNat 32 (512 * n₀ + p) == BitVec.ofNat 32 (512 * n₁ + q)) = _
  by_cases h : 512 * n₀ + p = 512 * n₁ + q
  · rw [if_pos h, h]; simp
  · rw [if_neg h]
    have hne : BitVec.ofNat 32 (512 * n₀ + p) ≠ BitVec.ofNat 32 (512 * n₁ + q) := fun e => by
      have := congrArg BitVec.toNat e
      simp only [BitVec.toNat_ofNat] at this
      omega
    rw [beq_eq_false_iff_ne.mpr hne]
    rfl

/-! ## The tile at an element -/

/-- The clamped, diagonal-marked squared distance the body computes from two panels, at (p, q). -/
theorem pay2_apply (i : grid0.Coords) (a b : FVec Ideal S512x512 .f32) (p q : Fin 512) :
    k0_pay2 (F := Ideal) i a b (ix2 p q)
      = if 512 * (i 0).val + p.val = 512 * (i 1).val + q.val then Ideal.ofBits .f32 0x00000000#32
        else max ((∑ k : Fin 512, a (ix2 p k) * a (ix2 p k)) + (∑ k : Fin 512, b (ix2 q k) * b (ix2 q k))
              - Ideal.ofBits .f32 0x40000000#32 * ∑ k : Fin 512, a (ix2 p k) * b (ix2 q k)) (Ideal.ofBits .f32 0x00000000#32) := by
  have h0 : (i 0).val < 8 := (i 0).isLt
  have h1 : (i 1).val < 8 := (i 1).isLt
  unfold k0_pay2
  show Scalar.select (IntOp.cmpi .eq
          (IntOp.addi (Scalar.muli (BitVec.ofNat 32 (i 0).val) 512#32) (iota .tc S512x512 32 [0] iota_S512x512_d0_w32 (ix2 p q)))
          (IntOp.addi (Scalar.muli (BitVec.ofNat 32 (i 1).val) 512#32) (iota .tc S512x512 32 [1] iota_S512x512_d1_w32 (ix2 p q))))
        (Ideal.ofBits .f32 0x00000000#32)
        (max ((broadcastTo S512x512 (shapeCast S512x1 (multiReduction (F := Ideal) .add [1] S512 (mulf a a) 0x00000000#32 reduces_S512x512_S512 (.inl rfl) rfl) shapeCasts_S512_S512x1) broadcasts_S512x1_S512x512 (ix2 p q)
              + broadcastTo S512x512 (transpose S1x512 [1, 0] (shapeCast S512x1 (multiReduction (F := Ideal) .add [1] S512 (mulf b b) 0x00000000#32 reduces_S512x512_S512 (.inl rfl) rfl) shapeCasts_S512_S512x1) transposes_S512x1_p1_0_S1x512) broadcasts_S1x512_S512x512 (ix2 p q))
            - Ideal.ofBits .f32 0x40000000#32 * matmul (F := Ideal) D none (truncf .bf16 a bitsLt_bf16_f32) (truncf .bf16 b bitsLt_bf16_f32) (constant S512x512 .f32 0x00000000#32) (ix2 p q))
          (Ideal.ofBits .f32 0x00000000#32)) = _
  rw [rowSq_apply a rfl p q, colSq_apply b rfl p q, gram_apply a b p q,
    iota_single_apply .tc S512x512 32 0 iota_S512x512_d0_w32 (ix2 p q), iota_single_apply .tc S512x512 32 1 iota_S512x512_d1_w32 (ix2 p q)]
  show Scalar.select (IntOp.cmpi .eq (IntOp.addi (Scalar.muli (BitVec.ofNat 32 (i 0).val) 512#32) (BitVec.ofNat 32 p.val))
      (IntOp.addi (Scalar.muli (BitVec.ofNat 32 (i 1).val) 512#32) (BitVec.ofNat 32 q.val))) _ _ = _
  rw [diag_bit (i 0).val (i 1).val p.val q.val h0 h1 p.isLt q.isLt]
  split
  · exact select_one _ _
  · exact select_zero _ _

/-- The body's tile at (p, q) is the guarded root of that. -/
theorem tile_apply (i : grid0.Coords) (x0 : FVec Ideal S512x512 .f32) (x1 : FVec Ideal S4096x512 .f32) (p q : Fin 512) :
    tile (F := Ideal) i x0 x1 (ix2 p q) = root (k0_pay2 (F := Ideal) i (View.ld x0 rAll) (View.ld x1 (rRows i)) (ix2 p q)) := rfl

end Cert.KernelIdeal.TileValue

end
-- ==== Proof.ArrayValue.lean ====
/-
  The kernel's result array, over the extended reals: the distance matrix with its diagonal zeroed.

  Point t = (i₀, i₁) of the grid writes back the tile of rows 512·i₀ … of x against rows 512·i₁ … of x into block
  (i₀, i₁) of the result, and the 64 blocks tile the 4096 × 4096 array. Window 0's block at the point is the panel of
  rows 512·i₀ + p, window 1's is all of x, of which the body reads rows 512·i₁ + q. So element (512·i₀ + p, 512·i₁ + q)
  of the result is the guarded root of the clamped squared distance of those two rows, or of 0 when they are the same
  row: `distancesZeroDiag x` read through the block. Every element of the result lies in the block of the point
  (row / 512, column / 512), so after the run the whole array is `distancesZeroDiag x`.
-/
import proofs.«118046_j46308337386061_2_alg».proof.Proof.IdealLaunch
import proofs.«118046_j46308337386061_2_alg».proof.Proof.TileValue

set_option maxRecDepth 16384

noncomputable section

open scoped BigOperators

namespace Cert.KernelIdeal.ArrayValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Tile Cert.KernelIdeal.TileValue Cert.Pairwise

variable (m : (ℓ : Loc nD τ sig) → Buf (Elt Ideal) ℓ) (ρ : Dev nD → PrngReg)

theorem hz : (![0, 0] : Fin 2 → Nat) = fun _ => 0 := funext fun a => by fin_cases a <;> rfl

/-- The block indices at point t: window 0 moves with the first grid coordinate, window 1 stays at the origin, the
    output's block is the point's two coordinates. -/
theorem idx_facts : ∀ t : Fin cfg0.N,
    win0_0.index t (0 : Fin 2) = (grid0.coords t 0).val ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = (grid0.coords t 1).val :=
  (by decide +kernel : ∀ t : Fin grid0.N, _)

/-- Every block of the 8 × 8 tiling is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- Row p of window 0's block at point t is row 512·i₀ + p of x. -/
theorem iblk0_apply (c : Dev nD) (t : Fin cfg0.N) (p k : Fin 512) (r : Fin 4096)
    (hr : r.val = 512 * (grid0.coords t 0).val + p.val) :
    iblk m c 0 t (ix2 p k) = V m c main_arg0 (ix2 r k) := by
  obtain ⟨e0, e1, -⟩ := idx_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 512 + 1 * k.val = k.val; omega

/-- Window 1's block at every point is all of x. -/
theorem iblk1_apply (c : Dev nD) (t : Fin cfg0.N) (y : S4096x512.Idx) : iblk m c 1 t y = V m c main_arg0 y := by
  obtain ⟨-, -, e2, e3, -⟩ := idx_facts t
  show V m c main_arg0 (((cfg0.win 1).blk t).view.emb y) = V m c main_arg0 y
  refine congrArg _ (funext fun a => Fin.ext ?_)
  match a with
  | ⟨0, _⟩ => show win0_1.index t (0 : Fin 2) * 4096 + 1 * (y 0).val = (y 0).val; omega
  | ⟨1, _⟩ => show win0_1.index t (1 : Fin 2) * 512 + 1 * (y 1).val = (y 1).val; omega

/-- The body's second load reads, as its row q, row 512·i₁ + q of the resident array. -/
theorem rows_idx (i : grid0.Coords) (q k : Fin 512) (s : Fin 4096)
    (hs : s.val = 512 * (i 1).val + q.val) : (rRows i).idx (ix2 q k) = ix2 s k := by
  refine funext fun a => Fin.ext ?_
  have e := k0_off1_eq i
  match a with
  | ⟨0, _⟩ => show k0_off1 i 0 + 1 * q.val = s.val; rw [e]; show 512 * (i 1).val + 1 * q.val = s.val; omega
  | ⟨1, _⟩ => show k0_off1 i 1 + 1 * k.val = k.val; rw [e]; show 0 + 1 * k.val = k.val; omega

/-- What point t writes back is block t of the zero-diagonal distance matrix of x. -/
theorem flushed_eq (c : Dev nD) (t : Fin cfg0.N) :
    (dats m 0 c).flushed 2 t = ((cfg0.win 2).blk t).view.read (Elt Ideal) (distancesZeroDiag (V m c main_arg0)) := by
  show (cfg0.win 2).cut (grid0.coords t) ((dats m 0 c).after 2 t) = _
  rw [after0_2]
  unfold outTile
  rw [View.canon_unit_zero hz]
  obtain ⟨e0, e1, e2, e3, e4, e5⟩ := idx_facts t
  have h0 : (grid0.coords t 0).val < 8 := (grid0.coords t 0).isLt
  have h1 : (grid0.coords t 1).val < 8 := (grid0.coords t 1).isLt
  funext j
  obtain ⟨p, q, rfl⟩ : ∃ (p q : Fin 512), j = ix2 p q := ⟨j 0, j 1, eq_ix2 j⟩
  obtain ⟨r, hr⟩ : ∃ r : Fin 4096, r.val = 512 * (grid0.coords t 0).val + p.val := ⟨⟨_, by omega⟩, rfl⟩
  obtain ⟨s, hs⟩ : ∃ s : Fin 4096, s.val = 512 * (grid0.coords t 1).val + q.val := ⟨⟨_, by omega⟩, rfl⟩
  show tile (grid0.coords t) (iblk m c 0 t) (iblk m c 1 t) (ix2 p q)
    = distancesZeroDiag (V m c main_arg0) (((cfg0.win 2).blk t).view.emb (ix2 p q))
  have hemb : ((cfg0.win 2).blk t).view.emb (ix2 p q) = ix2 r s := funext fun a => Fin.ext (by
    match a with
    | ⟨0, _⟩ => show win0_2.index t (0 : Fin 2) * 512 + 1 * p.val = r.val; omega
    | ⟨1, _⟩ => show win0_2.index t (1 : Fin 2) * 512 + 1 * q.val = s.val; omega)
  rw [hemb, tile_apply, pay2_apply, View.ld_unit_zero hz]
  simp only [iblk0_apply m c t p _ r hr, iblk1_apply m c t, rows_idx (grid0.coords t) q _ s hs]
  show root _ = distZeroDiagAt (V m c main_arg0) r s
  unfold distZeroDiagAt sqDist gram
  rw [hr, hs]

/-- An element of the result lies in point t's block iff each coordinate lies in the block's range. -/
theorem mem_blk (t : Fin cfg0.N) (i : S4096x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- Every element of the result is in the block of the point (row / 512, column / 512), which writes back. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- After the run the result array is the zero-diagonal distance matrix of x. -/
theorem final (c : Dev nD) : (dats m 0 c).arrAt 2 cfg0.N = distancesZeroDiag (V m c main_arg0) :=
  (dats m 0 c).arrAt_eq_of_cover 2 _ (fun t _ => flushed_eq m c t) cover

/-- The run of the idealized kernel: it terminates without fault, its result is the zero-diagonal distance matrix of its
    argument, and the argument is unchanged. -/
theorem run : θ_run defs (onTc (τ := τ) (main (F := Ideal))) ⟨m, fun _ => 0, ρ⟩ fun r => ∀ c : Dev nD,
      r.2.mem ((c.tc : Thread nD τ).loc main_v0) = distancesZeroDiag (m ((c.tc : Thread nD τ).loc main_arg0))
      ∧ r.2.mem ((c.tc : Thread nD τ).loc main_arg0) = m ((c.tc : Thread nD τ).loc main_arg0) :=
  (θ_run defs _ _).mono (fun r h c => ⟨(h c 2).trans (final m c), (h c 0).trans (final_arg m c)⟩) (run_main m ρ)

end Cert.KernelIdeal.ArrayValue

end
-- ==== Proof.RefDist.lean ====
/-
  The reference computes `dist`.

  Read one operation at a time, element (r, s) of the reference's result is the guarded root of
  max (sq_r + sq_s − 2·g_rs, 0), where sq_r = 0 + Σ_k x(r,k)·x(r,k) is the row's sum of squares (the reduction's
  initial value is the zero word, which denotes 0) and g_rs = Σ_k x(r,k)·x(s,k) the contraction. The only work is to
  identify the composed index functions of the broadcasts, the reduction and the contraction with plain (row, k)
  indices; then both sides are the same expression.
-/
import proofs.«118046_j46308337386061_2_alg».proof.Proof.Gen.ReferenceIdeal.Read
import proofs.«118046_j46308337386061_2_alg».proof.Proof.Dist

noncomputable section

open scoped BigOperators

namespace Cert.ReferenceIdeal.RefValue

open Cert.ReferenceIdeal Cert.ReferenceIdeal.Read Cert.Pairwise Idealize.ShloMosaic Idealize.ShloMosaic.ValueIdx

/-- The row broadcast down the columns reads row (i 0) of the sums of squares: element k of that row of x. -/
theorem rowIdx (i : S4096x4096.Idx) (k : Fin 512) : idx_main_v1 (idx_main_v3 (idx_main_v5 i)) k = ix2 (i 0) k :=
  funext fun a => Fin.ext (by match a with | ⟨0, _⟩ => rfl | ⟨1, _⟩ => rfl)
/-- The row broadcast across the rows reads row (i 1). -/
theorem colIdx (i : S4096x4096.Idx) (k : Fin 512) : idx_main_v1 (idx_main_v4 (idx_main_v6 i)) k = ix2 (i 1) k :=
  funext fun a => Fin.ext (by match a with | ⟨0, _⟩ => rfl | ⟨1, _⟩ => rfl)
/-- The contraction's left factor is x at (i 0, k), its right factor x at (i 1, k). -/
theorem lIdx (i : S4096x4096.Idx) (k : Fin 512) : lidx_main_v2 i k = ix2 (i 0) k :=
  funext fun a => Fin.ext (by match a with | ⟨0, _⟩ => rfl | ⟨1, _⟩ => rfl)
theorem rIdx (i : S4096x4096.Idx) (k : Fin 512) : ridx_main_v2 i k = ix2 (i 1) k :=
  funext fun a => Fin.ext (by match a with | ⟨0, _⟩ => rfl | ⟨1, _⟩ => rfl)

/-- The reference's result is the distance matrix of its argument. -/
theorem result_eq (x : (⟨S4096x512, .f32⟩ : BufTy).Contents (Elt Ideal)) : val_main_v19 (F := Ideal) x = distances x := by
  funext i
  simp only [val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply,
    val_main_cst_2_apply, val_main_cst_3_apply, val_main_cst_4_apply, val_main_cst_5_apply, val_main_call0_v0_apply,
    val_main_call0_v1_apply, val_main_call1_v0_apply, val_main_call1_v1_apply, rowIdx, colIdx, lIdx, rIdx,
    Ideal.ofBits_def, Ideal.mulf_def, Ideal.addf_def, Ideal.subf_def, Ideal.maximumf_def, Ideal.cmpf_def,
    Ideal.hostUnary_sqrt_def]
  unfold distances distAt root sqDist gram
  simp only [Ideal.ofBits_zero_f32, zero_add]
  rfl

end Cert.ReferenceIdeal.RefValue

end
-- ==== Proof.FiniteInputs.lean ====
/-
  The precondition, decoded: every entry of x is a real number.

  The printed precondition is the conjunction, over all entries, of |x(i)| < +∞ (the comparison's right side is the
  float word of +∞). On the extended reals |a| = max (a, −a), and max (a, −a) < ⊤ excludes both a = ⊤ and a = ⊥, so
  each entry is (the reading of) a real number.
-/
import proofs.«118046_j46308337386061_2_alg».proof.Pre_finite_inputs
import proofs.«118046_j46308337386061_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Decode

open Cert.Pre_finite_inputs Idealize.ShloMosaic

instance : Subsingleton S_.Idx := ⟨fun a b => funext fun d => d.elim0⟩

/-- The float word 0x7F800000 denotes +∞. -/
theorem inf_word : Ideal.ofBits .f32 0x7F800000#32 = ⊤ := by simp [Ideal.ofBits, Ideal.ieee]

/-- Under the precondition every entry of the argument is a real number. -/
theorem real_of_pre (x : FVec Ideal S4096x512 .f32) (h : fn (F := Ideal) x = fun _ => 1#1) (i : S4096x512.Idx) :
    ∃ v : ℝ, x i = v := by
  have e := congrFun h ValueIdx.ix0
  dsimp only [fn] at e
  have hi := Host.reduce_andi_all _ _ _ _ _ e i
  change Ideal.cmp .olt (max (x i) (-(x i))) (Ideal.ofBits .f32 0x7F800000#32) = 1#1 at hi
  rw [inf_word] at hi
  have hlt : max (x i) (-(x i)) < ⊤ := by
    by_contra hn
    have h0 : Ideal.cmp .olt (max (x i) (-(x i))) ⊤ = 0#1 := by
      show BitVec.ofBool (decide (max (x i) (-(x i)) < ⊤)) = 0#1
      rw [decide_eq_false hn]; rfl
    rw [h0] at hi
    exact absurd hi (by decide)
  have h1 : x i ≠ ⊤ := fun e => by rw [e] at hlt; exact absurd hlt (by simp)
  have h2 : x i ≠ ⊥ := fun e => by rw [e] at hlt; exact absurd hlt (by simp)
  exact ⟨(x i).toReal, (EReal.coe_toReal h1 h2).symm⟩

end Cert.Pre_finite_inputs.Decode

end
-- ==== Proof.lean ====
/-
  The pairwise-distance kernel against its reference, over the extended reals.

  Both programs compute, for x : [4096, 512], the matrix of Euclidean distances between the rows of x through
  |x_r − x_s|² = ⟨x_r, x_r⟩ + ⟨x_s, x_s⟩ − 2·⟨x_r, x_s⟩, clamped at 0, followed by a square root guarded to be taken only of
  positive numbers. The kernel tiles the result 8 × 8, reads the one array x through two windows (a streamed row panel
  and the whole array, resident), and in addition overwrites the squared distance by 0 where the global row and column
  numbers agree. On the extended reals the two results are equal exactly because, for x with real entries, the
  reference's diagonal is already 0 (v + v − 2·v = 0 for the real number v = ⟨x_r, x_r⟩): this is where the precondition
  — every entry of x finite — is used, and it is used nowhere else. Rounding the matrix product's factors to a narrower
  format, the tiling, and the order of the sums make no difference on the extended reals.

  The three frames: the kernel's, at the word level and idealized, is the run of its one pipelined region (the body
  run symbolically, the array x shared half and half between its two windows); the reference's is its run with the
  result dropped. No rewrite was applied in idealizing the kernel, so there is nothing to preserve.
-/
import proofs.«118046_j46308337386061_2_alg».proof.Defs
import proofs.«118046_j46308337386061_2_alg».proof.Proof.Gen.Kernel
import proofs.«118046_j46308337386061_2_alg».proof.Proof.Gen.Kernel.Skeleton
import proofs.«118046_j46308337386061_2_alg».proof.Proof.Gen.Kernel.Launch
import proofs.«118046_j46308337386061_2_alg».proof.Proof.Gen.Kernel.Points
import proofs.«118046_j46308337386061_2_alg».proof.Proof.Gen.KernelIdeal
import proofs.«118046_j46308337386061_2_alg».proof.Proof.Gen.KernelIdeal.Skeleton
import proofs.«118046_j46308337386061_2_alg».proof.Proof.Gen.KernelIdeal.Launch
import proofs.«118046_j46308337386061_2_alg».proof.Proof.Gen.KernelIdeal.Points
import proofs.«118046_j46308337386061_2_alg».proof.Proof.Gen.ReferenceIdeal
import proofs.«118046_j46308337386061_2_alg».proof.Proof.Gen.ReferenceIdeal.Run
import proofs.«118046_j46308337386061_2_alg».proof.Proof.Gen.ReferenceIdeal.Read
import proofs.«118046_j46308337386061_2_alg».proof.Proof.Gen.Pre_finite_inputs
import proofs.«118046_j46308337386061_2_alg».proof.Proof.BitsLaunch
import proofs.«118046_j46308337386061_2_alg».proof.Proof.ArrayValue
import proofs.«118046_j46308337386061_2_alg».proof.Proof.RefDist
import proofs.«118046_j46308337386061_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs to the end without fault and leaves x unchanged. -/
theorem frame_kernel : Cert.frame_Kernel := fun m ρ _ => Cert.Kernel.Tile.frame m ρ

/-- So does the idealized kernel. -/
theorem frame_kernelIdeal : Cert.frame_KernelIdeal := fun m ρ _ => Cert.KernelIdeal.Tile.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the kernel rewrote nothing. -/
theorem preserves : Cert.preserves_Kernel_KernelIdeal := trivial

/-- From memories agreeing on x, with every entry of x finite, both programs end with the distance matrix of x: the
    kernel with its diagonal zeroed, which for real entries changes nothing; the reference as it stands. -/
theorem algebraic : Cert.algebraic_KernelIdeal_ReferenceIdeal := by
  intro m ρ m' ρ' hpre hagree
  refine ⟨_, (θ_run Cert.KernelIdeal.defs _ _).mono
    (fun r h c => ⟨(h c).1.trans (Cert.Pairwise.distancesZeroDiag_eq _ fun i => Cert.Pre_finite_inputs.Decode.real_of_pre _ (hpre c) i), (h c).2⟩)
    (Cert.KernelIdeal.ArrayValue.run m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
